-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128 .f32) (main_arg16 : FVec F S128 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_v63 main_v67

def fn_part2 {F : FTy → Type} [FloatOps F] (main_arg9 : FVec F S128x128 .f32) (main_arg10 : FVec F S128 .f32) (main_arg11 : FVec F S2x128 .f32) (main_arg12 : FVec F S2 .f32) (main_arg13 : FVec F S128 .f32) (main_arg14 : FVec F S128 .f32) (main_arg15 : FVec F S128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_arg13 main_arg14 main_arg15 main_arg16 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S2x128 .f32) (main_arg12 : FVec F S2 .f32) (main_arg13 : FVec F S128 .f32) (main_arg14 : FVec F S128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S2x128 .f32) (main_arg12 : FVec F S2 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S1x128 : Shape := ⟨2, ![1, 128]⟩
abbrev S512x128 : Shape := ⟨2, ![512, 128]⟩
abbrev S512x2 : Shape := ⟨2, ![512, 2]⟩
abbrev S128x2 : Shape := ⟨2, ![128, 2]⟩
abbrev S1x2 : Shape := ⟨2, ![1, 2]⟩

abbrev nBuf : Space → Nat
  | .hbm => 67
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000x1, .f32⟩
  | .hbm, ⟨23, _⟩ => ⟨S_, .f32⟩
  | .hbm, ⟨24, _⟩ => ⟨S50000x1, .f32⟩
  | .hbm, ⟨25, _⟩ => ⟨S800000x1, .i32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S512x128, .f32⟩
  | .hbm, ⟨64, _⟩ => ⟨S50000x1, .i32⟩
  | .hbm, ⟨65, _⟩ => ⟨S512x128, .f32⟩
  | .hbm, ⟨66, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S512x128, .f32⟩
  | .local _ .vmem, ⟨19, _⟩ => ⟨S128x128, .f32⟩
  | .local _ .vmem, ⟨20, _⟩ => ⟨S128, .f32⟩
  | .local _ .vmem, ⟨21, _⟩ => ⟨S2x128, .f32⟩
  | .local _ .vmem, ⟨22, _⟩ => ⟨S2, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x128.size a ≤ S2x128.size a
  hwx2_3 : ∀ i : grid2.Coords, EltTy.bits .f32 = 32 ∨ (Rect.block (s := S2x128) S2x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x2.size a ≤ S512x2.size a
  hwx2_9 : ∀ i : grid2.Coords, EltTy.bits .f32 = 32 ∨ (Rect.block (s := S512x2) S512x2.size (cc2_transform_9 i) (hinb2_9 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S2x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg16) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39) S512x2.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S128x2 : Shape := ⟨2, ![128, 2]⟩
abbrev S512x2 : Shape := ⟨2, ![512, 2]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000x1, .f32⟩
  | .hbm, ⟨36, _⟩ => ⟨S_, .f32⟩
  | .hbm, ⟨37, _⟩ => ⟨S50000x1, .f32⟩
  | .hbm, ⟨38, _⟩ => ⟨S800000x1, .i32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S_, .f32⟩
  | .hbm, ⟨67, _⟩ => ⟨S800000x1, .f32⟩
  | .hbm, ⟨68, _⟩ => ⟨S_, .f32⟩
  | .hbm, ⟨69, _⟩ => ⟨S50000x1, .f32⟩
  | .hbm, ⟨70, _⟩ => ⟨S800000x1, .i32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S128x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S512x128, .f32⟩
  | .hbm, ⟨87, _⟩ => ⟨S50000x1, .i32⟩
  | .hbm, ⟨88, _⟩ => ⟨S512x128, .f32⟩
  | .hbm, ⟨89, _⟩ => ⟨S128x128, .f32⟩
  | .hbm, ⟨90, _⟩ => ⟨S512x128, .f32⟩
  | .hbm, ⟨91, _⟩ => ⟨S1x128, .f32⟩
  | .hbm, ⟨92, _⟩ => ⟨S512x128, .f32⟩
  | .hbm, ⟨93, _⟩ => ⟨S512x128, .f32⟩
  | .hbm, ⟨94, _⟩ => ⟨S1x128, .f32⟩
  | .hbm, ⟨95, _⟩ => ⟨S512x128, .f32⟩
  | .hbm, ⟨96, _⟩ => ⟨S512x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S512x128, .f32⟩
  | .hbm, ⟨103, _⟩ => ⟨S512x128, .f32⟩
  | .hbm, ⟨104, _⟩ => ⟨S1x128, .f32⟩
  | .hbm, ⟨105, _⟩ => ⟨S512x128, .f32⟩
  | .hbm, ⟨106, _⟩ => ⟨S512x128, .f32⟩
  | .hbm, ⟨107, _⟩ => ⟨S1x128, .f32⟩
  | .hbm, ⟨108, _⟩ => ⟨S512x128, .f32⟩
  | .hbm, ⟨109, _⟩ => ⟨S512x128, .f32⟩
  | .hbm, ⟨110, _⟩ => ⟨S_, .f32⟩
  | .hbm, ⟨111, _⟩ => ⟨S512x128, .f32⟩
  | .hbm, ⟨112, _⟩ => ⟨S512x128, .f32⟩
  | .hbm, ⟨113, _⟩ => ⟨S128x2, .f32⟩
  | .hbm, ⟨114, _⟩ => ⟨S512x2, .f32⟩
  | .hbm, ⟨115, _⟩ => ⟨S1x2, .f32⟩
  | .hbm, ⟨116, _⟩ => ⟨S512x2, .f32⟩
  | .hbm, ⟨117, _⟩ => ⟨S512x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call0_cst : Ref sig .tc := ⟨.hbm, 110, rfl⟩
abbrev main_call0_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S1x128_S512x128_0_1 : S1x128.BroadcastsInDim S512x128 (![0, 1] : Fin 2 → Fin S512x128.rank)
  bcast_S_S128 : S_.BroadcastsInDim S128 (![] : Fin 0 → Fin S128.rank)
  transposes_S2x128_S128x2_1_0 : S2x128.Transposes [1, 0] S128x2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KRun.lean ====
/-
  The run of the three-region program with its result named.

  The program is three stretches of host operations, each followed by a region. Its buffers at the seven boundaries are
  a fold from the launch memory (the generated `W0 … W6`): a stretch applies its operations, a region replaces its
  arrays by what its write-backs leave. Every weakly fair execution terminates, and in its final state every unscoped
  buffer holds the last boundary's contents `W6`. Read at the result buffer this names the result; read at an
  argument buffer it walks back to the launch memory, so the arguments end unchanged.
-/
import proofs.«155865_j5927054868969_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates without a fault; the result buffer ends at the last
    boundary's contents and every argument array ends as launched. -/
theorem run_main : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.KRun

end
-- ==== Proof.Spec.lean ====
/-
  A two-layer mean-aggregation graph network with a pooled classifier tail, written entry by entry over the
  extended reals.

  One layer maps a node's aggregated neighbour row `a[p, ·]` and its own row `x[p, ·]` to
      out[p, q] = (Σ_k a[p, k] · Wl[q, k]  +  Σ_k x[p, k] · Wr[q, k])  +  b[q]                         (`layerAt`),
  both weight matrices being used through their transposes. The tail maps a pooled row `h[p, ·]` to
      hid[p, k] = max (((Σ_j h[p, j] · W1[k, j] + b1[k]) − μ[k]) · rsqrt (σ²[k] + ε) · γ[k] + β[k]) 0   (`hiddenAt`),
      out[p, q] = Σ_k hid[p, k] · W2[q, k] + b2[q]                                                      (`tailAt`),
  a linear map, a normalisation by fixed statistics, a rectifier and a second linear map. The number of rows of a
  layer is a parameter, so that the same function speaks of a block of rows and of the whole array.
-/
import Idealize.ShloMosaic.Lib.ValueIdx
import Idealize.ShloMosaic.PureOps.Ideal

noncomputable section

namespace Cert.Sage

open Idealize.ShloMosaic Idealize.ShloMosaic.ValueIdx

/-- Entry (p, q) of a layer: the aggregated row against row q of the first weight matrix, plus the node's own row
    against row q of the second, plus the bias. -/
def layerAt {R : Nat} (a x : FVec Ideal ⟨2, ![R, 128]⟩ .f32) (wl wr : FVec Ideal ⟨2, ![128, 128]⟩ .f32)
    (b : FVec Ideal ⟨1, ![128]⟩ .f32) (p : Fin R) (q : Fin 128) : Ideal .f32 :=
  (∑ k : Fin 128, a (ix2 p k) * wl (ix2 q k) + ∑ k : Fin 128, x (ix2 p k) * wr (ix2 q k)) + b (ix1 q)

/-- A layer as a whole array of R rows. -/
def layer {R : Nat} (a x : FVec Ideal ⟨2, ![R, 128]⟩ .f32) (wl wr : FVec Ideal ⟨2, ![128, 128]⟩ .f32)
    (b : FVec Ideal ⟨1, ![128]⟩ .f32) : FVec Ideal ⟨2, ![R, 128]⟩ .f32 :=
  fun i => layerAt a x wl wr b (i 0) (i 1)

theorem layer_apply {R : Nat} (a x : FVec Ideal ⟨2, ![R, 128]⟩ .f32) (wl wr : FVec Ideal ⟨2, ![128, 128]⟩ .f32)
    (b : FVec Ideal ⟨1, ![128]⟩ .f32) (p : Fin R) (q : Fin 128) :
    layer a x wl wr b (ix2 p q) = layerAt a x wl wr b p q := rfl

/-- Entry (p, k) of the tail's hidden layer: linear map, normalisation by the fixed mean μ and variance σ²
    (with the variance's ε), scale γ and shift β, rectifier. -/
def hiddenAt (h : FVec Ideal ⟨2, ![512, 128]⟩ .f32) (w1 : FVec Ideal ⟨2, ![128, 128]⟩ .f32)
    (b1 g be mu var : FVec Ideal ⟨1, ![128]⟩ .f32) (p : Fin 512) (k : Fin 128) : Ideal .f32 :=
  max (((((∑ j : Fin 128, h (ix2 p j) * w1 (ix2 k j)) + b1 (ix1 k)) - mu (ix1 k))
          * Ideal.rsqrt (var (ix1 k) + Ideal.ofBits .f32 0x3727C5AC#32)) * g (ix1 k) + be (ix1 k))
    (Ideal.ofBits .f32 0x00000000#32)

/-- Entry (p, q) of the tail's output: the hidden row against row q of the second weight matrix, plus its bias. -/
def tailAt (h : FVec Ideal ⟨2, ![512, 128]⟩ .f32) (w1 : FVec Ideal ⟨2, ![128, 128]⟩ .f32) (b1 : FVec Ideal ⟨1, ![128]⟩ .f32)
    (w2 : FVec Ideal ⟨2, ![2, 128]⟩ .f32) (b2 : FVec Ideal ⟨1, ![2]⟩ .f32) (g be mu var : FVec Ideal ⟨1, ![128]⟩ .f32)
    (p : Fin 512) (q : Fin 2) : Ideal .f32 :=
  (∑ k : Fin 128, hiddenAt h w1 b1 g be mu var p k * w2 (ix2 q k)) + b2 (ix1 q)

/-- The tail as a whole array. -/
def tail (h : FVec Ideal ⟨2, ![512, 128]⟩ .f32) (w1 : FVec Ideal ⟨2, ![128, 128]⟩ .f32) (b1 : FVec Ideal ⟨1, ![128]⟩ .f32)
    (w2 : FVec Ideal ⟨2, ![2, 128]⟩ .f32) (b2 : FVec Ideal ⟨1, ![2]⟩ .f32) (g be mu var : FVec Ideal ⟨1, ![128]⟩ .f32) :
    FVec Ideal ⟨2, ![512, 2]⟩ .f32 :=
  fun i => tailAt h w1 b1 w2 b2 g be mu var (i 0) (i 1)

theorem tail_apply (h : FVec Ideal ⟨2, ![512, 128]⟩ .f32) (w1 : FVec Ideal ⟨2, ![128, 128]⟩ .f32) (b1 : FVec Ideal ⟨1, ![128]⟩ .f32)
    (w2 : FVec Ideal ⟨2, ![2, 128]⟩ .f32) (b2 : FVec Ideal ⟨1, ![2]⟩ .f32) (g be mu var : FVec Ideal ⟨1, ![128]⟩ .f32)
    (p : Fin 512) (q : Fin 2) : tail h w1 b1 w2 b2 g be mu var (ix2 p q) = tailAt h w1 b1 w2 b2 g be mu var p q := rfl

end Cert.Sage

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.PayLayer.lean ====
/-
  What one grid point of a layer's kernel computes, entry by entry.

  The body loads a block of rows of the aggregated array and of the node array, the two weight matrices and the bias,
  forms the two products block · Wᵀ into a zero accumulator, adds them, and adds the bias broadcast over the rows.
  Over the extended reals a change of float format is the identity and a product into the zero splat is the plain
  sum over the contracted axis, so entry (p, q) of the stored block is
      (Σ_k a[p, k] · Wl[q, k] + Σ_k x[p, k] · Wr[q, k]) + b[q],
  the layer function of the loaded blocks. The second layer's body differs only by a shape cast to the same shape.
-/
import proofs.«155865_j5927054868969_1_alg».proof.Proof.Gen.KernelIdeal.Skeleton
import proofs.«155865_j5927054868969_1_alg».proof.Proof.Spec
import proofs.«155865_j5927054868969_1_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- A kernel's product of x [M, K] with the transpose of w [N, K], into the zero splat: entry (p, q) is the sum over
    k of x[p, k] · w[q, k]. -/
theorem matmul_transpose_apply {M K N : Nat} {φ₁ φ₂ : FTy} (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    matmul (F := Ideal) (DotDims.plain M K N) none x (transpose ⟨2, ![K, N]⟩ [1, 0] w h) (constant ⟨2, ![M, N]⟩ .f32 0x00000000#32) (ix2 p q)
      = ∑ k : Fin K, x (ix2 p k) * w (ix2 q k) := by
  rw [Cert.Lib.DotRows.matmul_plain_apply]
  exact Finset.sum_congr rfl fun k _ => by rw [transpose_ix2_apply]

/-- The printed dimension numbers of the layers' products are the plain ones. -/
theorem dot_layer_eq : dot_S5000x128_S128x128_S5000x128_1_0_0_1_n_n = DotDims.plain 5000 128 128 := rfl

/-- A vector [C], viewed [1, C] and broadcast over R rows, reads b[q] at (p, q). -/
theorem bias_rows_apply {R C : Nat} {α : Type} (b : (⟨1, ![C]⟩ : Shape).Idx → α) (h1 : (⟨1, ![C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ b h1) h2 (ix2 p q) = b (ix1 q) :=
  (broadcastTo_1b_ab_apply _ h2 p q).trans (shapeCast_a_1a_apply b h1 0 q)

/-- Entry (p, q) of what a point of the FIRST layer's kernel stores is the layer function of its loaded blocks. -/
theorem k0_pay1_apply (v0 v3 : Vec Ideal S5000x128 .f32) (v5 v7 : Vec Ideal S128x128 .f32) (v14 : Vec Ideal S128 .f32)
    (p : Fin 5000) (q : Fin 128) :
    k0_pay1 (F := Ideal) v0 v3 v5 v7 v14 (ix2 p q) = Cert.Sage.layerAt (R := 5000) v0 v3 v5 v7 v14 p q := by
  unfold k0_pay1 Cert.Sage.layerAt
  show (_ + _) + _ = (_ + _) + _
  refine congrArg₂ (· + ·) (congrArg₂ (· + ·) ?_ ?_) ?_
  · refine (matmul_transpose_apply (M := 5000) (K := 128) (N := 128) _ _ _ p q).trans ?_
    exact Finset.sum_congr rfl fun k _ => congrArg (· * v5 (ix2 q k)) (congrFun (shapeCast_self v0 _) (ix2 p k))
  · exact matmul_transpose_apply (M := 5000) (K := 128) (N := 128) _ _ _ p q
  · exact bias_rows_apply (R := 5000) (C := 128) v14 _ _ p q

/-- Entry (p, q) of what a point of the SECOND layer's kernel stores is the layer function of its loaded blocks. -/
theorem k1_pay1_apply (v0 v3 : Vec Ideal S5000x128 .f32) (v6 v8 : Vec Ideal S128x128 .f32) (v15 : Vec Ideal S128 .f32)
    (p : Fin 5000) (q : Fin 128) :
    k1_pay1 (F := Ideal) v0 v3 v6 v8 v15 (ix2 p q) = Cert.Sage.layerAt (R := 5000) v0 v3 v6 v8 v15 p q := by
  unfold k1_pay1 Cert.Sage.layerAt
  show (_ + _) + _ = (_ + _) + _
  refine congrArg₂ (· + ·) (congrArg₂ (· + ·) ?_ ?_) ?_
  · refine (matmul_transpose_apply (M := 5000) (K := 128) (N := 128) _ _ _ p q).trans ?_
    exact Finset.sum_congr rfl fun k _ => congrArg (· * v6 (ix2 q k)) (congrFun (shapeCast_self v0 _) (ix2 p k))
  · refine (matmul_transpose_apply (M := 5000) (K := 128) (N := 128) _ _ _ p q).trans ?_
    exact Finset.sum_congr rfl fun k _ => congrArg (· * v8 (ix2 q k)) (congrFun (shapeCast_self v3 _) (ix2 p k))
  · exact bias_rows_apply (R := 5000) (C := 128) v15 _ _ p q

/-- ROWS OF THE WHOLE LAYER. If the loaded blocks are, at the rows and columns that entry `y` of the stored block needs,
    the whole arrays at the rows and columns that entry `i` of the whole layer needs, then the stored block at `y` is
    the whole layer at `i`: the first layer's kernel. -/
theorem k0_block (A X : FVec Ideal ⟨2, ![50000, 128]⟩ .f32) (Wl Wr : FVec Ideal ⟨2, ![128, 128]⟩ .f32) (b : FVec Ideal ⟨1, ![128]⟩ .f32)
    (x0 x1 : Vec Ideal S5000x128 .f32) (x2 x3 : Vec Ideal S128x128 .f32) (x4 : Vec Ideal S128 .f32)
    (y : S5000x128.Idx) (i : (⟨2, ![50000, 128]⟩ : Shape).Idx)
    (h0 : ∀ k : Fin 128, x0 (ix2 (y 0) k) = A (ix2 (i 0) k)) (h1 : ∀ k : Fin 128, x1 (ix2 (y 0) k) = X (ix2 (i 0) k))
    (h2 : ∀ k : Fin 128, x2 (ix2 (y 1) k) = Wl (ix2 (i 1) k)) (h3 : ∀ k : Fin 128, x3 (ix2 (y 1) k) = Wr (ix2 (i 1) k))
    (h4 : x4 (ix1 (y 1)) = b (ix1 (i 1))) :
    k0_pay1 (F := Ideal) x0 x1 x2 x3 x4 y = Cert.Sage.layer (R := 50000) A X Wl Wr b i := by
  refine (congrArg (k0_pay1 (F := Ideal) x0 x1 x2 x3 x4) (eq_ix2 y)).trans ((k0_pay1_apply x0 x1 x2 x3 x4 (y 0) (y 1)).trans ?_)
  unfold Cert.Sage.layer Cert.Sage.layerAt
  simp only [h0, h1, h2, h3, h4]

/-- The same for the second layer's kernel. -/
theorem k1_block (A X : FVec Ideal ⟨2, ![50000, 128]⟩ .f32) (Wl Wr : FVec Ideal ⟨2, ![128, 128]⟩ .f32) (b : FVec Ideal ⟨1, ![128]⟩ .f32)
    (x0 x1 : Vec Ideal S5000x128 .f32) (x2 x3 : Vec Ideal S128x128 .f32) (x4 : Vec Ideal S128 .f32)
    (y : S5000x128.Idx) (i : (⟨2, ![50000, 128]⟩ : Shape).Idx)
    (h0 : ∀ k : Fin 128, x0 (ix2 (y 0) k) = A (ix2 (i 0) k)) (h1 : ∀ k : Fin 128, x1 (ix2 (y 0) k) = X (ix2 (i 0) k))
    (h2 : ∀ k : Fin 128, x2 (ix2 (y 1) k) = Wl (ix2 (i 1) k)) (h3 : ∀ k : Fin 128, x3 (ix2 (y 1) k) = Wr (ix2 (i 1) k))
    (h4 : x4 (ix1 (y 1)) = b (ix1 (i 1))) :
    k1_pay1 (F := Ideal) x0 x1 x2 x3 x4 y = Cert.Sage.layer (R := 50000) A X Wl Wr b i := by
  refine (congrArg (k1_pay1 (F := Ideal) x0 x1 x2 x3 x4) (eq_ix2 y)).trans ((k1_pay1_apply x0 x1 x2 x3 x4 (y 0) (y 1)).trans ?_)
  unfold Cert.Sage.layer Cert.Sage.layerAt
  simp only [h0, h1, h2, h3, h4]

end Cert.KernelIdeal.Pay

end
-- ==== Proof.Region0.lean ====
/-
  The array a layer's region leaves, as one function of the arrays it finds.

  The region runs ten grid points. Point t fetches rows 5000·t … 5000·t + 4999 of the aggregated array and of the node
  array, the whole of both weight matrices and of the bias, and writes back rows 5000·t … 5000·t + 4999 of the output.
  What it writes back is the layer function of its blocks (the body's payload read entry by entry), and the blocks it
  loads are exactly the rows and columns that those entries of the WHOLE layer need. So what point t writes back is
  block t of the layer function of the whole arrays; the ten blocks tile the 50000 rows (row r belongs to point
  r / 5000); hence the output array ends holding the layer function of the arrays the region found.
-/
import proofs.«155865_j5927054868969_1_alg».proof.Proof.Gen.KernelIdeal.Frame
import proofs.«155865_j5927054868969_1_alg».proof.Proof.PayLayer

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer function of the arrays the region finds. -/
abbrev G (c : Dev nD) : S50000x128.Idx → Elt Ideal .f32 :=
  Cert.Sage.layer (R := 50000) (V c main_v21) (V c main_arg0) (V c main_arg3) (V c main_arg5) (V c main_arg4)

/-- The printed index maps over the grid: the two row windows move with the output's rows, the weights and the bias
    stay at block 0, and the output's block row is the point's number, below 10. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

/-- Every block row of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- WHAT POINT t WRITES BACK is block t of the layer function of the arrays the region finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨e0, e1, e2, e3, e4, e5, e6, e7, e8, e9, e10⟩ := idx_facts t
  funext j
  refine Pay.k0_block (V c main_v21) (V c main_arg0) (V c main_arg3) (V c main_arg5) (V c main_arg4) _ _ _ _ _
    ((cfg0.win 5).xinj (grid0.coords t) j) (((cfg0.win 5).blk t).view.emb j) ?_ ?_ ?_ ?_ ?_
  · intro k
    show V c main_v21 (((cfg0.win 0).blk t).view.emb (ix2 (j 0) k)) = _
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = _
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · intro k
    show V c main_arg3 (((cfg0.win 2).blk t).view.emb (ix2 (j 1) k)) = _
    refine congrArg _ (funext fun a => Fin.ext ?_)
    match a with
    | ⟨0, _⟩ => show win0_2.index t (0 : Fin 2) * 128 + 1 * (j 1).val = win0_5.index t (1 : Fin 2) * 128 + 1 * (j 1).val; omega
    | ⟨1, _⟩ => show win0_2.index t (1 : Fin 2) * 128 + 1 * k.val = k.val; omega
  · intro k
    show V c main_arg5 (((cfg0.win 3).blk t).view.emb (ix2 (j 1) k)) = _
    refine congrArg _ (funext fun a => Fin.ext ?_)
    match a with
    | ⟨0, _⟩ => show win0_3.index t (0 : Fin 2) * 128 + 1 * (j 1).val = win0_5.index t (1 : Fin 2) * 128 + 1 * (j 1).val; omega
    | ⟨1, _⟩ => show win0_3.index t (1 : Fin 2) * 128 + 1 * k.val = k.val; omega
  · show V c main_arg4 (((cfg0.win 4).blk t).view.emb (ix1 (j 1))) = _
    refine congrArg _ (funext fun a => Fin.ext ?_)
    match a with
    | ⟨0, _⟩ => show win0_4.index t (0 : Fin 1) * 128 + 1 * (j 1).val = win0_5.index t (1 : Fin 2) * 128 + 1 * (j 1).val; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- The ten blocks tile the array: row r is in the block of the point whose block row is r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer function of the arrays the region found. -/
theorem final (c : Dev nD) : (dat0 V c).arrAt 5 cfg0.N = G V c :=
  (dat0 V c).arrAt_eq_of_cover 5 (G V c) (fun t _ => flushed_eq V c t) cover

end Cert.KernelIdeal.Reg0

end
-- ==== Proof.Region1.lean ====
/-
  The array a layer's region leaves, as one function of the arrays it finds.

  The region runs ten grid points. Point t fetches rows 5000·t … 5000·t + 4999 of the aggregated array and of the node
  array, the whole of both weight matrices and of the bias, and writes back rows 5000·t … 5000·t + 4999 of the output.
  What it writes back is the layer function of its blocks (the body's payload read entry by entry), and the blocks it
  loads are exactly the rows and columns that those entries of the WHOLE layer need. So what point t writes back is
  block t of the layer function of the whole arrays; the ten blocks tile the 50000 rows (row r belongs to point
  r / 5000); hence the output array ends holding the layer function of the arrays the region found.
-/
import proofs.«155865_j5927054868969_1_alg».proof.Proof.Gen.KernelIdeal.Frame
import proofs.«155865_j5927054868969_1_alg».proof.Proof.PayLayer

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The layer function of the arrays the region finds. -/
abbrev G (c : Dev nD) : S50000x128.Idx → Elt Ideal .f32 :=
  Cert.Sage.layer (R := 50000) (V c main_v34) (V c main_v22) (V c main_arg6) (V c main_arg8) (V c main_arg7)

/-- The printed index maps over the grid: the two row windows move with the output's rows, the weights and the bias
    stay at block 0, and the output's block row is the point's number, below 10. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 9 :=
  (by decide +kernel : ∀ t : Fin grid1.N, _)

/-- Every block row of the output is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- WHAT POINT t WRITES BACK is block t of the layer function of the arrays the region finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨e0, e1, e2, e3, e4, e5, e6, e7, e8, e9, e10⟩ := idx_facts t
  funext j
  refine Pay.k1_block (V c main_v34) (V c main_v22) (V c main_arg6) (V c main_arg8) (V c main_arg7) _ _ _ _ _
    ((cfg1.win 5).xinj (grid1.coords t) j) (((cfg1.win 5).blk t).view.emb j) ?_ ?_ ?_ ?_ ?_
  · intro k
    show V c main_v34 (((cfg1.win 0).blk t).view.emb (ix2 (j 0) k)) = _
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v22 (((cfg1.win 1).blk t).view.emb (ix2 (j 0) k)) = _
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · intro k
    show V c main_arg6 (((cfg1.win 2).blk t).view.emb (ix2 (j 1) k)) = _
    refine congrArg _ (funext fun a => Fin.ext ?_)
    match a with
    | ⟨0, _⟩ => show win1_2.index t (0 : Fin 2) * 128 + 1 * (j 1).val = win1_5.index t (1 : Fin 2) * 128 + 1 * (j 1).val; omega
    | ⟨1, _⟩ => show win1_2.index t (1 : Fin 2) * 128 + 1 * k.val = k.val; omega
  · intro k
    show V c main_arg8 (((cfg1.win 3).blk t).view.emb (ix2 (j 1) k)) = _
    refine congrArg _ (funext fun a => Fin.ext ?_)
    match a with
    | ⟨0, _⟩ => show win1_3.index t (0 : Fin 2) * 128 + 1 * (j 1).val = win1_5.index t (1 : Fin 2) * 128 + 1 * (j 1).val; omega
    | ⟨1, _⟩ => show win1_3.index t (1 : Fin 2) * 128 + 1 * k.val = k.val; omega
  · show V c main_arg7 (((cfg1.win 4).blk t).view.emb (ix1 (j 1))) = _
    refine congrArg _ (funext fun a => Fin.ext ?_)
    match a with
    | ⟨0, _⟩ => show win1_4.index t (0 : Fin 1) * 128 + 1 * (j 1).val = win1_5.index t (1 : Fin 2) * 128 + 1 * (j 1).val; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35).slice (win1_5.rect t)).set ↔ _
  rw [View.set_slice_whole, Rect.mem_set_unit]
  exact Iff.rfl

/-- The ten blocks tile the array: row r is in the block of the point whose block row is r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer function of the arrays the region found. -/
theorem final (c : Dev nD) : (dat1 V c).arrAt 5 cfg1.N = G V c :=
  (dat1 V c).arrAt_eq_of_cover 5 (G V c) (fun t _ => flushed_eq V c t) cover

end Cert.KernelIdeal.Reg1

end
-- ==== Proof.PayTail.lean ====
/-
  What the tail's kernel computes, entry by entry.

  The one grid point loads the pooled array [512, 128], the two weight matrices, the two biases and the four
  normalisation vectors, and stores
      hid = max (((h · W1ᵀ + b1) − μ) · rsqrt (σ² + ε) · γ + β) 0,      out = hid · W2ᵀ + b2,
  every vector viewed as one row and broadcast over the 512 rows, both products into a zero accumulator. Over the
  extended reals the format changes are the identity and the products are plain sums, so entry (p, q) of the stored
  block is the tail function of the loaded arrays.
-/
import proofs.«155865_j5927054868969_1_alg».proof.Proof.PayLayer

noncomputable section

namespace Cert.KernelIdeal.Pay

open Idealize.ShloMosaic Idealize.ShloMosaic.ValueIdx Cert.KernelIdeal Cert.KernelIdeal.Gen

/-- The printed dimension numbers of the tail's two products are the plain ones. -/
theorem dot_tail1_eq : dot_S512x128_S128x128_S512x128_1_0_0_1_n_n = DotDims.plain 512 128 128 := rfl
theorem dot_tail2_eq : dot_S512x128_S128x2_S512x2_1_0_0_1_n_n = DotDims.plain 512 128 2 := rfl

/-- Entry (p, q) of what the tail's kernel stores is the tail function of its loaded arrays. -/
theorem k2_pay1_apply (v0 : Vec Ideal S512x128 .f32) (v2 : Vec Ideal S128x128 .f32) (v7 v11 v15 v22 v26 : Vec Ideal S128 .f32)
    (v32 : Vec Ideal S2x128 .f32) (v37 : Vec Ideal S2 .f32) (p : Fin 512) (q : Fin 2) :
    k2_pay1 (F := Ideal) v0 v2 v7 v11 v15 v22 v26 v32 v37 (ix2 p q)
      = Cert.Sage.tailAt v0 v2 v7 v32 v37 v22 v26 v11 v15 p q := by
  unfold k2_pay1 Cert.Sage.tailAt
  show _ + _ = _ + _
  refine congrArg₂ (· + ·) ?_ ?_
  · refine (matmul_transpose_apply (M := 512) (K := 128) (N := 2) _ _ _ p q).trans ?_
    refine Finset.sum_congr rfl fun k _ => congrArg (· * v32 (ix2 q k)) ?_
    unfold Cert.Sage.hiddenAt
    show max ((((_ + _) - _) * _) * _ + _) _ = max ((((_ + _) - _) * _) * _ + _) _
    refine congrArg₂ max (congrArg₂ (· + ·) (congrArg₂ (· * ·) (congrArg₂ (· * ·) (congrArg₂ (· - ·)
      (congrArg₂ (· + ·) ?_ ?_) ?_) ?_) ?_) ?_) ?_
    · refine (matmul_transpose_apply (M := 512) (K := 128) (N := 128) _ _ _ p k).trans ?_
      exact Finset.sum_congr rfl fun j _ => congrArg (· * v2 (ix2 k j)) (congrFun (shapeCast_self v0 _) (ix2 p j))
    · exact bias_rows_apply (R := 512) (C := 128) v7 _ _ p k
    · exact bias_rows_apply (R := 512) (C := 128) v11 _ _ p k
    · refine (broadcastTo_1b_ab_apply _ _ p k).trans ?_
      show Ideal.rsqrt (_ + _) = Ideal.rsqrt (_ + _)
      exact congrArg (fun t => Ideal.rsqrt (t + Ideal.ofBits .f32 0x3727C5AC#32)) (shapeCast_a_1a_apply v15 _ 0 k)
    · exact bias_rows_apply (R := 512) (C := 128) v22 _ _ p k
    · exact bias_rows_apply (R := 512) (C := 128) v26 _ _ p k
    · rfl
  · exact bias_rows_apply (R := 512) (C := 2) v37 _ _ p q

/-- THE WHOLE TAIL. If the loaded arrays are the arrays H, W1, …, and entry `y` of the stored block sits at entry `i`
    of the output array, then the stored block at `y` is the tail function of those arrays at `i`. -/
theorem k2_block (H : FVec Ideal ⟨2, ![512, 128]⟩ .f32) (W1 : FVec Ideal ⟨2, ![128, 128]⟩ .f32) (B1 : FVec Ideal ⟨1, ![128]⟩ .f32)
    (W2 : FVec Ideal ⟨2, ![2, 128]⟩ .f32) (B2 : FVec Ideal ⟨1, ![2]⟩ .f32) (Gm Be Mu Va : FVec Ideal ⟨1, ![128]⟩ .f32)
    (v0 : Vec Ideal S512x128 .f32) (v2 : Vec Ideal S128x128 .f32) (v7 v11 v15 v22 v26 : Vec Ideal S128 .f32)
    (v32 : Vec Ideal S2x128 .f32) (v37 : Vec Ideal S2 .f32) (y : S512x2.Idx) (i : (⟨2, ![512, 2]⟩ : Shape).Idx)
    (e0 : v0 = H) (e1 : v2 = W1) (e2 : v7 = B1) (e3 : v11 = Mu) (e4 : v15 = Va) (e5 : v22 = Gm) (e6 : v26 = Be)
    (e7 : v32 = W2) (e8 : v37 = B2) (hy : ∀ a : Fin 2, (y a).val = (i a).val) :
    k2_pay1 (F := Ideal) v0 v2 v7 v11 v15 v22 v26 v32 v37 y = Cert.Sage.tail H W1 B1 W2 B2 Gm Be Mu Va i := by
  subst e0 e1 e2 e3 e4 e5 e6 e7 e8
  refine (congrArg (k2_pay1 (F := Ideal) v0 v2 v7 v11 v15 v22 v26 v32 v37) (eq_ix2 y)).trans
    ((k2_pay1_apply v0 v2 v7 v11 v15 v22 v26 v32 v37 (y 0) (y 1)).trans ?_)
  have h0 : (y 0 : Fin 512) = i 0 := Fin.ext (hy 0)
  have h1 : (y 1 : Fin 2) = i 1 := Fin.ext (hy 1)
  show Cert.Sage.tailAt v0 v2 v7 v32 v37 v22 v26 v11 v15 (y 0) (y 1) = Cert.Sage.tailAt v0 v2 v7 v32 v37 v22 v26 v11 v15 (i 0) (i 1)
  rw [h0, h1]

end Cert.KernelIdeal.Pay

end
-- ==== Proof.Region2.lean ====
/-
  The array the tail's region leaves, as one function of the arrays it finds.

  The region runs one grid point; every window's one block is its whole array (block index 0 on every axis). What the
  point writes back is the tail function of its blocks (the body's payload read entry by entry), that is of the whole
  arrays, and its one block covers the output array. So the output array ends holding the tail function of the arrays
  the region found.
-/
import proofs.«155865_j5927054868969_1_alg».proof.Proof.Gen.KernelIdeal.Frame
import proofs.«155865_j5927054868969_1_alg».proof.Proof.PayTail

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The tail function of the arrays the region finds. -/
abbrev G (c : Dev nD) : S512x2.Idx → Elt Ideal .f32 :=
  Cert.Sage.tail (V c main_v38) (V c main_arg9) (V c main_arg10) (V c main_arg11) (V c main_arg12) (V c main_arg13) (V c main_arg14)
    (V c main_arg15) (V c main_arg16)

/-- The printed index maps over the one-point grid: every window is at block 0 on every axis. -/
theorem idx_facts : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 1) = 0
    ∧ win2_6.index t (0 : Fin 1) = 0
    ∧ win2_7.index t (0 : Fin 1) = 0
    ∧ win2_8.index t (0 : Fin 1) = 0
    ∧ win2_9.index t (0 : Fin 2) = 0
    ∧ win2_9.index t (1 : Fin 2) = 0 :=
  (by decide +kernel : ∀ t : Fin grid2.N, _)

/-- Window 0's one block is its whole array. -/
theorem blk0 (c : Dev nD) (t : Fin cfg2.N) : iblk2 V c 0 t = V c main_v38 := by
  obtain ⟨f0, f1, f2, f3, f4, f5, f6, f7, f8, f9, f10, f11, f12, f13⟩ := idx_facts t
  funext y
  show V c main_v38 (((cfg2.win 0).blk t).view.emb y) = V c main_v38 y
  refine congrArg _ (funext fun a => Fin.ext ?_)
  match a with
    | ⟨0, _⟩ => show win2_0.index t (0 : Fin 2) * 512 + 1 * (y 0).val = (y 0).val; omega
    | ⟨1, _⟩ => show win2_0.index t (1 : Fin 2) * 128 + 1 * (y 1).val = (y 1).val; omega

/-- Window 1's one block is its whole array. -/
theorem blk1 (c : Dev nD) (t : Fin cfg2.N) : iblk2 V c 1 t = V c main_arg9 := by
  obtain ⟨f0, f1, f2, f3, f4, f5, f6, f7, f8, f9, f10, f11, f12, f13⟩ := idx_facts t
  funext y
  show V c main_arg9 (((cfg2.win 1).blk t).view.emb y) = V c main_arg9 y
  refine congrArg _ (funext fun a => Fin.ext ?_)
  match a with
    | ⟨0, _⟩ => show win2_1.index t (0 : Fin 2) * 128 + 1 * (y 0).val = (y 0).val; omega
    | ⟨1, _⟩ => show win2_1.index t (1 : Fin 2) * 128 + 1 * (y 1).val = (y 1).val; omega

/-- Window 2's one block is its whole array. -/
theorem blk2 (c : Dev nD) (t : Fin cfg2.N) : iblk2 V c 2 t = V c main_arg10 := by
  obtain ⟨f0, f1, f2, f3, f4, f5, f6, f7, f8, f9, f10, f11, f12, f13⟩ := idx_facts t
  funext y
  show V c main_arg10 (((cfg2.win 2).blk t).view.emb y) = V c main_arg10 y
  refine congrArg _ (funext fun a => Fin.ext ?_)
  match a with
    | ⟨0, _⟩ => show win2_2.index t (0 : Fin 1) * 128 + 1 * (y 0).val = (y 0).val; omega

/-- Window 3's one block is its whole array. -/
theorem blk3 (c : Dev nD) (t : Fin cfg2.N) : iblk2 V c 3 t = V c main_arg11 := by
  obtain ⟨f0, f1, f2, f3, f4, f5, f6, f7, f8, f9, f10, f11, f12, f13⟩ := idx_facts t
  funext y
  show V c main_arg11 (((cfg2.win 3).blk t).view.emb y) = V c main_arg11 y
  refine congrArg _ (funext fun a => Fin.ext ?_)
  match a with
    | ⟨0, _⟩ => show win2_3.index t (0 : Fin 2) * 2 + 1 * (y 0).val = (y 0).val; omega
    | ⟨1, _⟩ => show win2_3.index t (1 : Fin 2) * 128 + 1 * (y 1).val = (y 1).val; omega

/-- Window 4's one block is its whole array. -/
theorem blk4 (c : Dev nD) (t : Fin cfg2.N) : iblk2 V c 4 t = V c main_arg12 := by
  obtain ⟨f0, f1, f2, f3, f4, f5, f6, f7, f8, f9, f10, f11, f12, f13⟩ := idx_facts t
  funext y
  show V c main_arg12 (((cfg2.win 4).blk t).view.emb y) = V c main_arg12 y
  refine congrArg _ (funext fun a => Fin.ext ?_)
  match a with
    | ⟨0, _⟩ => show win2_4.index t (0 : Fin 1) * 2 + 1 * (y 0).val = (y 0).val; omega

/-- Window 5's one block is its whole array. -/
theorem blk5 (c : Dev nD) (t : Fin cfg2.N) : iblk2 V c 5 t = V c main_arg13 := by
  obtain ⟨f0, f1, f2, f3, f4, f5, f6, f7, f8, f9, f10, f11, f12, f13⟩ := idx_facts t
  funext y
  show V c main_arg13 (((cfg2.win 5).blk t).view.emb y) = V c main_arg13 y
  refine congrArg _ (funext fun a => Fin.ext ?_)
  match a with
    | ⟨0, _⟩ => show win2_5.index t (0 : Fin 1) * 128 + 1 * (y 0).val = (y 0).val; omega

/-- Window 6's one block is its whole array. -/
theorem blk6 (c : Dev nD) (t : Fin cfg2.N) : iblk2 V c 6 t = V c main_arg14 := by
  obtain ⟨f0, f1, f2, f3, f4, f5, f6, f7, f8, f9, f10, f11, f12, f13⟩ := idx_facts t
  funext y
  show V c main_arg14 (((cfg2.win 6).blk t).view.emb y) = V c main_arg14 y
  refine congrArg _ (funext fun a => Fin.ext ?_)
  match a with
    | ⟨0, _⟩ => show win2_6.index t (0 : Fin 1) * 128 + 1 * (y 0).val = (y 0).val; omega

/-- Window 7's one block is its whole array. -/
theorem blk7 (c : Dev nD) (t : Fin cfg2.N) : iblk2 V c 7 t = V c main_arg15 := by
  obtain ⟨f0, f1, f2, f3, f4, f5, f6, f7, f8, f9, f10, f11, f12, f13⟩ := idx_facts t
  funext y
  show V c main_arg15 (((cfg2.win 7).blk t).view.emb y) = V c main_arg15 y
  refine congrArg _ (funext fun a => Fin.ext ?_)
  match a with
    | ⟨0, _⟩ => show win2_7.index t (0 : Fin 1) * 128 + 1 * (y 0).val = (y 0).val; omega

/-- Window 8's one block is its whole array. -/
theorem blk8 (c : Dev nD) (t : Fin cfg2.N) : iblk2 V c 8 t = V c main_arg16 := by
  obtain ⟨f0, f1, f2, f3, f4, f5, f6, f7, f8, f9, f10, f11, f12, f13⟩ := idx_facts t
  funext y
  show V c main_arg16 (((cfg2.win 8).blk t).view.emb y) = V c main_arg16 y
  refine congrArg _ (funext fun a => Fin.ext ?_)
  match a with
    | ⟨0, _⟩ => show win2_8.index t (0 : Fin 1) * 128 + 1 * (y 0).val = (y 0).val; omega

/-- WHAT THE POINT WRITES BACK is the block of the tail function of the arrays the region finds. -/
theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9]
  unfold out2_9
  rw [View.canon_unit_zero zero2]
  simp only [View.ld_unit_zero (S := S512x128) zero2, View.ld_unit_zero (S := S128x128) zero2, View.ld_unit_zero (S := S128) zero1,
    View.ld_unit_zero (S := S2x128) zero2, View.ld_unit_zero (S := S2) zero1]
  obtain ⟨f0, f1, f2, f3, f4, f5, f6, f7, f8, f9, f10, f11, f12, f13⟩ := idx_facts t
  funext j
  refine Pay.k2_block (V c main_v38) (V c main_arg9) (V c main_arg10) (V c main_arg11) (V c main_arg12) (V c main_arg13) (V c main_arg14)
    (V c main_arg15) (V c main_arg16) _ _ _ _ _ _ _ _ _
    ((cfg2.win 9).xinj (grid2.coords t) j) (((cfg2.win 9).blk t).view.emb j)
    (blk0 V c t) (blk1 V c t) (blk2 V c t) (blk7 V c t) (blk8 V c t) (blk5 V c t) (blk6 V c t) (blk3 V c t) (blk4 V c t) fun a => ?_
  match a with
  | ⟨0, _⟩ => show (j 0).val = win2_9.index t (0 : Fin 2) * 512 + 1 * (j 0).val; omega
  | ⟨1, _⟩ => show (j 1).val = win2_9.index t (1 : Fin 2) * 2 + 1 * (j 1).val; omega

/-- An index of the output array is in the point's block iff each coordinate is in the block's range on its axis. -/
theorem mem_blk (t : Fin cfg2.N) (i : S512x2.Idx) :
    i ∈ ((cfg2.win 9).blk t).view.set ↔ ∀ a : Fin 2, win2_9.index t a * S512x2.size a ≤ (i a).val ∧ (i a).val < win2_9.index t a * S512x2.size a + S512x2.size a := by
  show i ∈ ((View.whole main_v39).slice (win2_9.rect t)).set ↔ _
  rw [View.set_slice_whole, Rect.mem_set_unit]
  exact Iff.rfl

/-- The one block covers the output array. -/
theorem cover (i : S512x2.Idx) : ∃ t : Fin cfg2.N, (cfg2.win 9).flush t = true ∧ i ∈ ((cfg2.win 9).blk t).view.set := by
  have hi0 : (i 0).val < 512 := (i 0).isLt
  have hi1 : (i 1).val < 2 := (i 1).isLt
  obtain ⟨f0, f1, f2, f3, f4, f5, f6, f7, f8, f9, f10, f11, f12, f13⟩ := idx_facts t2_0
  refine ⟨t2_0, flush2_9 t2_0, ?_⟩
  rw [mem_blk]
  intro a
  match a with
  | ⟨0, _⟩ => show win2_9.index t2_0 (0 : Fin 2) * 512 ≤ (i 0).val ∧ (i 0).val < win2_9.index t2_0 (0 : Fin 2) * 512 + 512; omega
  | ⟨1, _⟩ => show win2_9.index t2_0 (1 : Fin 2) * 2 ≤ (i 1).val ∧ (i 1).val < win2_9.index t2_0 (1 : Fin 2) * 2 + 2; omega

/-- THE OUTPUT ARRAY after the region: the tail function of the arrays the region found. -/
theorem final (c : Dev nD) : (dat2 V c).arrAt 9 cfg2.N = G V c :=
  (dat2 V c).arrAt_eq_of_cover 9 (G V c) (fun t _ => flushed_eq V c t) cover

end Cert.KernelIdeal.Reg2

end
-- ==== Proof.RefLayers.lean ====
/-
  The reference's layers and tail are the layer and tail functions.

  On the host a layer is  (a · Wlᵀ + b) + x · Wrᵀ  with the transposes materialised and the bias broadcast in two steps;
  entry by entry over the extended reals each product is the plain sum over the contracted axis, and moving the bias
  past the second product is commutativity and associativity of addition, which hold on all of the extended reals. So
  a host layer is the layer function of its operands, whatever they are; in particular the first layer's stage is the
  layer function of the first aggregation, and the second layer's stage is the layer function of the second
  aggregation and of the first layer. The tail's stages are read the same way: the rectifier is a maximum against the
  broadcast zero, the normalisation's reciprocal square root is taken of the variance vector plus the broadcast ε.
-/
import proofs.«155865_j5927054868969_1_alg».proof.Proof.Gen.ReferenceIdeal.Read
import proofs.«155865_j5927054868969_1_alg».proof.Proof.Spec
import proofs.«155865_j5927054868969_1_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-- The host's product of x [M, K] with the materialised transpose of w [N, K]: entry (p, q) is the sum over k of
    x[p, k] · w[q, k]. -/
theorem dot_transpose_apply {M K N : Nat} {φ₁ φ₂ : FTy} (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    Host.dotGeneral (F := Ideal) (DotDims.plain M K N) none x (transpose ⟨2, ![K, N]⟩ [1, 0] w h) (ix2 p q)
      = ∑ k : Fin K, x (ix2 p k) * w (ix2 q k) := by
  rw [Cert.Lib.DotRows.dotGeneral_plain_apply]
  exact Finset.sum_congr rfl fun k _ => by rw [transpose_ix2_apply]

/-- A vector [C] broadcast to one row [1, C] and then over R rows reads b[q] at (p, q). -/
theorem row_bcast_apply {R C : Nat} {α : Type} (hC : C ≠ 1) (b : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show 0 = if (1 : Nat) = 1 then 0 else p.val; rw [if_pos rfl]
    | ⟨1, _⟩ => show q.val = if C = 1 then 0 else q.val; rw [if_neg hC]
  · match a with
    | ⟨0, _⟩ => show q.val = if C = 1 then 0 else q.val; rw [if_neg hC]

/-- A HOST LAYER is the layer function of its operands. -/
theorem host_layer (a x : FVec Ideal S50000x128 .f32) (wl wr : FVec Ideal S128x128 .f32) (b : FVec Ideal S128 .f32) :
    addf (addf (Host.dotGeneral (φ₁ := .f32) (φ₂ := .f32) dot_S50000x128_S128x128_S50000x128_1_0_0_1_n_n none a (val_main_v22 (F := Ideal) wl)) (val_main_v25 (F := Ideal) b))
         (Host.dotGeneral (φ₁ := .f32) (φ₂ := .f32) dot_S50000x128_S128x128_S50000x128_1_0_0_1_n_n none x (val_main_v22 (F := Ideal) wr))
      = Cert.Sage.layer (R := 50000) a x wl wr b := by
  funext i
  obtain ⟨p, q, rfl⟩ : ∃ (p : Fin 50000) (q : Fin 128), i = ix2 p q := ⟨i 0, i 1, eq_ix2 i⟩
  rw [Cert.Sage.layer_apply]
  unfold Cert.Sage.layerAt
  show (_ + _) + _ = (_ + _) + _
  refine (add_right_comm _ _ _).trans ?_
  refine congrArg₂ (· + ·) (congrArg₂ (· + ·) ?_ ?_) ?_
  · exact dot_transpose_apply (M := 50000) (K := 128) (N := 128) a wl _ p q
  · exact dot_transpose_apply (M := 50000) (K := 128) (N := 128) x wr _ p q
  · exact row_bcast_apply (R := 50000) (C := 128) (by decide) b _ _ p q

/-- The first layer's stage is the layer function of the first aggregation and the node features. -/
theorem layer1 (x0 : FVec Ideal S50000x128 .f32) (x1 : IVec S2x800000 32) (x3 : FVec Ideal S128x128 .f32) (x4 : FVec Ideal S128 .f32)
    (x5 : FVec Ideal S128x128 .f32) :
    val_main_v29 (F := Ideal) x0 x1 x3 x4 x5 = Cert.Sage.layer (R := 50000) (val_main_v21 (F := Ideal) x0 x1) x0 x3 x5 x4 :=
  host_layer (val_main_v21 (F := Ideal) x0 x1) x0 x3 x5 x4

/-- The second layer's stage is the layer function of the second aggregation and the first layer. -/
theorem layer2 (x0 : FVec Ideal S50000x128 .f32) (x1 : IVec S2x800000 32) (x3 : FVec Ideal S128x128 .f32) (x4 : FVec Ideal S128 .f32)
    (x5 x6 : FVec Ideal S128x128 .f32) (x7 : FVec Ideal S128 .f32) (x8 : FVec Ideal S128x128 .f32) :
    val_main_v55 (F := Ideal) x0 x1 x3 x4 x5 x6 x7 x8
      = Cert.Sage.layer (R := 50000) (val_main_v47 (F := Ideal) x0 x1 x3 x4 x5) (val_main_v29 (F := Ideal) x0 x1 x3 x4 x5) x6 x8 x7 :=
  host_layer (val_main_v47 (F := Ideal) x0 x1 x3 x4 x5) (val_main_v29 (F := Ideal) x0 x1 x3 x4 x5) x6 x8 x7

/-- THE HOST TAIL is the tail function of its operands. -/
theorem host_tail (h : FVec Ideal S512x128 .f32) (x9 : FVec Ideal S128x128 .f32) (x10 : FVec Ideal S128 .f32) (x11 : FVec Ideal S2x128 .f32)
    (x12 : FVec Ideal S2 .f32) (x13 x14 x15 x16 : FVec Ideal S128 .f32) :
    addf (Host.dotGeneral (φ₁ := .f32) (φ₂ := .f32) dot_S512x128_S128x2_S512x2_1_0_0_1_n_n none
            (maximumf (addf (mulf (mulf (subf (addf (Host.dotGeneral (φ₁ := .f32) (φ₂ := .f32) dot_S512x128_S128x128_S512x128_1_0_0_1_n_n none h (val_main_v59 (F := Ideal) x9))
                (val_main_v62 (F := Ideal) x10)) (val_main_v65 (F := Ideal) x15)) (val_main_v71 (F := Ideal) x16)) (val_main_v74 (F := Ideal) x13))
                (val_main_v77 (F := Ideal) x14)) (val_main_call0_v0 (F := Ideal)))
            (val_main_v80 (F := Ideal) x11))
         (val_main_v83 (F := Ideal) x12)
      = Cert.Sage.tail h x9 x10 x11 x12 x13 x14 x15 x16 := by
  funext i
  obtain ⟨p, q, rfl⟩ : ∃ (p : Fin 512) (q : Fin 2), i = ix2 p q := ⟨i 0, i 1, eq_ix2 i⟩
  rw [Cert.Sage.tail_apply]
  unfold Cert.Sage.tailAt
  show _ + _ = _ + _
  refine congrArg₂ (· + ·) ?_ ?_
  · refine (dot_transpose_apply (M := 512) (K := 128) (N := 2) _ x11 _ p q).trans ?_
    refine Finset.sum_congr rfl fun k _ => congrArg (· * x11 (ix2 q k)) ?_
    unfold Cert.Sage.hiddenAt
    show max ((((_ + _) - _) * _) * _ + _) _ = max ((((_ + _) - _) * _) * _ + _) _
    refine congrArg₂ max (congrArg₂ (· + ·) (congrArg₂ (· * ·) (congrArg₂ (· * ·) (congrArg₂ (· - ·)
      (congrArg₂ (· + ·) ?_ ?_) ?_) ?_) ?_) ?_) ?_
    · exact dot_transpose_apply (M := 512) (K := 128) (N := 128) h x9 _ p k
    · exact row_bcast_apply (R := 512) (C := 128) (by decide) x10 _ _ p k
    · exact row_bcast_apply (R := 512) (C := 128) (by decide) x15 _ _ p k
    · refine (row_bcast_apply (R := 512) (C := 128) (by decide) (val_main_v69 (F := Ideal) x16) _ _ p k).trans ?_
      show Ideal.rsqrt (x16 (ix1 k) + val_main_v67 (F := Ideal) (ix1 k)) = _
      rw [val_main_v67_apply]
      rfl
    · exact row_bcast_apply (R := 512) (C := 128) (by decide) x13 _ _ p k
    · exact row_bcast_apply (R := 512) (C := 128) (by decide) x14 _ _ p k
    · exact (val_main_call0_v0_apply (F := Ideal) (ix2 p k)).trans rfl
  · exact row_bcast_apply (R := 512) (C := 2) (by decide) x12 _ _ p q

/-- The tail's last stage is the tail function of the pooled array. -/
theorem tailStage (x0 : FVec Ideal S50000x128 .f32) (x1 : IVec S2x800000 32) (x2 : IVec S50000 32) (x3 : FVec Ideal S128x128 .f32)
    (x4 : FVec Ideal S128 .f32) (x5 x6 : FVec Ideal S128x128 .f32) (x7 : FVec Ideal S128 .f32) (x8 x9 : FVec Ideal S128x128 .f32)
    (x10 : FVec Ideal S128 .f32) (x11 : FVec Ideal S2x128 .f32) (x12 : FVec Ideal S2 .f32) (x13 x14 x15 x16 : FVec Ideal S128 .f32) :
    val_main_v84 (F := Ideal) x0 x1 x2 x3 x4 x5 x6 x7 x8 x9 x10 x11 x12 x13 x14 x15 x16
      = Cert.Sage.tail (val_main_v58 (F := Ideal) x0 x1 x2 x3 x4 x5 x6 x7 x8) x9 x10 x11 x12 x13 x14 x15 x16 :=
  host_tail (val_main_v58 (F := Ideal) x0 x1 x2 x3 x4 x5 x6 x7 x8) x9 x10 x11 x12 x13 x14 x15 x16

end Cert.ReferenceIdeal.RefValue

end
-- ==== Proof.KValue.lean ====
/-
  The kernel program's result as a function of its arguments.

  The buffers at the program's seven boundaries are a fold from the launch memory: a stretch of host operations
  applies them, a region replaces its output array by what its write-backs leave. Reading the fold backwards from the
  result buffer:
    * the tail's region leaves the tail function of the pooled array and the eight tail parameters;
    * the pooled array is the scatter-add by graph of the second layer's output;
    * the second layer's region leaves the layer function of the second aggregation, the first layer's output and the
      second layer's parameters; the second aggregation is the host's gather / scatter-add / divide of the first
      layer's output, with the neighbour counts computed once before the first region;
    * the first layer's region leaves the layer function of the first aggregation, the node features and the first
      layer's parameters.
  Every host stretch is the same composition of host operations as the corresponding stretch of the reference, so
  each boundary buffer is stated as the reference's own stage function of the launch arguments; the layer and tail
  functions meet the reference's layer and tail stages by the lemmas that read those stages entry by entry. An
  argument or an earlier result that a later stretch reads is found through the fold: no operation in between writes
  it, and a region leaves every buffer but its output as it found it.
-/
import proofs.«155865_j5927054868969_1_alg».proof.Proof.Region0
import proofs.«155865_j5927054868969_1_alg».proof.Proof.Region1
import proofs.«155865_j5927054868969_1_alg».proof.Proof.Region2
import proofs.«155865_j5927054868969_1_alg».proof.Proof.RefLayers
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- No operation of the three host stretches writes the buffer: the stretch leaves it as it found it. -/
local macro "unwritten " r:term : tactic => `(tactic|
  exact StableHlo.after_of_forall_not_mem (b := Proc.devRef .tc $r) _ _ (List.forall_iff_forall_mem.mp (by
    simp only [hostOps0, hostOps1, hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Before the first region -/

theorem V1_arg0 (c : Dev nD) : V1 m ρ c main_arg0 = m ((c : Thread nD τ).loc main_arg0) := by unwritten main_arg0
theorem V1_arg3 (c : Dev nD) : V1 m ρ c main_arg3 = m ((c : Thread nD τ).loc main_arg3) := by unwritten main_arg3
theorem V1_arg4 (c : Dev nD) : V1 m ρ c main_arg4 = m ((c : Thread nD τ).loc main_arg4) := by unwritten main_arg4
theorem V1_arg5 (c : Dev nD) : V1 m ρ c main_arg5 = m ((c : Thread nD τ).loc main_arg5) := by unwritten main_arg5

/-- The first aggregation: the reference's stage of the same name, of the node features and the edges. -/
theorem V1_v21 (c : Dev nD) :
    V1 m ρ c main_v21 = Cert.ReferenceIdeal.Read.val_main_v21 (F := Ideal) (m ((c : Thread nD τ).loc main_arg0)) (m ((c : Thread nD τ).loc main_arg1)) := by
  show StableHlo.after hostOps0 (W0 m ρ c) (Proc.devRef .tc main_v21) = _
  after_results_simp <;> rfl

/-- The source indices, the destination indices and the neighbour counts, computed once before the first region. -/
theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
theorem W1_v9 (c : Dev nD) : W1 m ρ c (Proc.devRef .tc main_v9) = Cert.ReferenceIdeal.Read.val_main_v19 (F := Ideal) (m ((c : Thread nD τ).loc main_arg1)) := by
  show StableHlo.after hostOps0 (W0 m ρ c) (Proc.devRef .tc main_v9) = _
  after_results_simp <;> rfl

/-! ## The first region, and the stretch after it -/

/-- The first region leaves the reference's first layer in its output array. -/
theorem W2_v22 (c : Dev nD) :
    W2 m ρ c (Proc.devRef .tc main_v22) = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Reg0.final (V1 m ρ) c).trans ?_)
  show Cert.Sage.layer (R := 50000) (V1 m ρ c main_v21) (V1 m ρ c main_arg0) (V1 m ρ c main_arg3) (V1 m ρ c main_arg5) (V1 m ρ c main_arg4) = _
  rw [V1_v21, V1_arg0, V1_arg3, V1_arg4, V1_arg5]
  exact (Cert.ReferenceIdeal.RefValue.layer1 _ _ _ _ _).symm

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v9 (c : Dev nD) : W2 m ρ c (Proc.devRef .tc main_v9) = Cert.ReferenceIdeal.Read.val_main_v19 (F := Ideal) (m ((c : Thread nD τ).loc main_arg1)) :=
  (W2_of_ne m ρ c main_v9 (by decide)).trans (W1_v9 m ρ c)

/-- An argument no region-0 window and no host operation touches is, before the second region, as launched. -/
theorem V3_arg6 (c : Dev nD) : V3 m ρ c main_arg6 = m ((c : Thread nD τ).loc main_arg6) :=
  calc W3 m ρ c (Proc.devRef .tc main_arg6)
    _ = W2 m ρ c (Proc.devRef .tc main_arg6) := by unwritten main_arg6
    _ = W1 m ρ c (Proc.devRef .tc main_arg6) := W2_of_ne m ρ c main_arg6 (by decide)
    _ = m ((c : Thread nD τ).loc main_arg6) := by unwritten main_arg6
theorem V3_arg7 (c : Dev nD) : V3 m ρ c main_arg7 = m ((c : Thread nD τ).loc main_arg7) :=
  calc W3 m ρ c (Proc.devRef .tc main_arg7)
    _ = W2 m ρ c (Proc.devRef .tc main_arg7) := by unwritten main_arg7
    _ = W1 m ρ c (Proc.devRef .tc main_arg7) := W2_of_ne m ρ c main_arg7 (by decide)
    _ = m ((c : Thread nD τ).loc main_arg7) := by unwritten main_arg7
theorem V3_arg8 (c : Dev nD) : V3 m ρ c main_arg8 = m ((c : Thread nD τ).loc main_arg8) :=
  calc W3 m ρ c (Proc.devRef .tc main_arg8)
    _ = W2 m ρ c (Proc.devRef .tc main_arg8) := by unwritten main_arg8
    _ = W1 m ρ c (Proc.devRef .tc main_arg8) := W2_of_ne m ρ c main_arg8 (by decide)
    _ = m ((c : Thread nD τ).loc main_arg8) := by unwritten main_arg8

/-- The second region finds the first layer where the first region left it. -/
theorem V3_v22 (c : Dev nD) :
    V3 m ρ c main_v22 = Cert.ReferenceIdeal.Read.val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (show W3 m ρ c (Proc.devRef .tc main_v22) = W2 m ρ c (Proc.devRef .tc main_v22) by unwritten main_v22).trans (W2_v22 m ρ c)

/-- The second aggregation: the reference's stage, of the first layer and the edges. -/
theorem V3_v34 (c : Dev nD) :
    V3 m ρ c main_v34 = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v34) = _
  after_results_simp
  all_goals (try rw [W2_v22 m ρ c, W2_v1 m ρ c, W2_v3 m ρ c, W2_v9 m ρ c])
  all_goals rfl

/-! ## The second region, and the stretch after it -/

/-- The second region leaves the reference's second layer in its output array. -/
theorem W4_v35 (c : Dev nD) :
    W4 m ρ c (Proc.devRef .tc main_v35) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Reg1.final (V3 m ρ) c).trans ?_)
  show Cert.Sage.layer (R := 50000) (V3 m ρ c main_v34) (V3 m ρ c main_v22) (V3 m ρ c main_arg6) (V3 m ρ c main_arg8) (V3 m ρ c main_arg7) = _
  rw [V3_v34, V3_v22, V3_arg6, V3_arg7, V3_arg8]
  exact (Cert.ReferenceIdeal.RefValue.layer2 _ _ _ _ _ _ _ _).symm

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten main_arg2
    _ = W1 m ρ c (Proc.devRef .tc main_arg2) := W2_of_ne m ρ c main_arg2 (by decide)
    _ = m ((c : Thread nD τ).loc main_arg2) := by unwritten main_arg2

/-- The pooled array: the reference's stage, the scatter-add by graph of the second layer. -/
theorem V5_v38 (c : Dev nD) :
    V5 m ρ c main_v38 = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v38) = _
  after_results_simp
  all_goals (try rw [W4_v35 m ρ c, W4_arg2 m ρ c])
  all_goals rfl

/-- Region 2 finds argument 9 as launched (it is the region's input window 1, which the region leaves in place). -/
theorem V5_arg9 (c : Dev nD) : V5 m ρ c main_arg9 = m ((c : Thread nD τ).loc main_arg9) :=
  ((W6_arr m ρ c 1).trans (((dat2 (V5 m ρ) c).arrAt_in 1 rfl _).trans (A_eq2 (V5 m ρ) c 1))).symm.trans (W6_main_arg9 m ρ c)
/-- Region 2 finds argument 10 as launched (it is the region's input window 2, which the region leaves in place). -/
theorem V5_arg10 (c : Dev nD) : V5 m ρ c main_arg10 = m ((c : Thread nD τ).loc main_arg10) :=
  ((W6_arr m ρ c 2).trans (((dat2 (V5 m ρ) c).arrAt_in 2 rfl _).trans (A_eq2 (V5 m ρ) c 2))).symm.trans (W6_main_arg10 m ρ c)
/-- Region 2 finds argument 11 as launched (it is the region's input window 3, which the region leaves in place). -/
theorem V5_arg11 (c : Dev nD) : V5 m ρ c main_arg11 = m ((c : Thread nD τ).loc main_arg11) :=
  ((W6_arr m ρ c 3).trans (((dat2 (V5 m ρ) c).arrAt_in 3 rfl _).trans (A_eq2 (V5 m ρ) c 3))).symm.trans (W6_main_arg11 m ρ c)
/-- Region 2 finds argument 12 as launched (it is the region's input window 4, which the region leaves in place). -/
theorem V5_arg12 (c : Dev nD) : V5 m ρ c main_arg12 = m ((c : Thread nD τ).loc main_arg12) :=
  ((W6_arr m ρ c 4).trans (((dat2 (V5 m ρ) c).arrAt_in 4 rfl _).trans (A_eq2 (V5 m ρ) c 4))).symm.trans (W6_main_arg12 m ρ c)
/-- Region 2 finds argument 13 as launched (it is the region's input window 5, which the region leaves in place). -/
theorem V5_arg13 (c : Dev nD) : V5 m ρ c main_arg13 = m ((c : Thread nD τ).loc main_arg13) :=
  ((W6_arr m ρ c 5).trans (((dat2 (V5 m ρ) c).arrAt_in 5 rfl _).trans (A_eq2 (V5 m ρ) c 5))).symm.trans (W6_main_arg13 m ρ c)
/-- Region 2 finds argument 14 as launched (it is the region's input window 6, which the region leaves in place). -/
theorem V5_arg14 (c : Dev nD) : V5 m ρ c main_arg14 = m ((c : Thread nD τ).loc main_arg14) :=
  ((W6_arr m ρ c 6).trans (((dat2 (V5 m ρ) c).arrAt_in 6 rfl _).trans (A_eq2 (V5 m ρ) c 6))).symm.trans (W6_main_arg14 m ρ c)
/-- Region 2 finds argument 15 as launched (it is the region's input window 7, which the region leaves in place). -/
theorem V5_arg15 (c : Dev nD) : V5 m ρ c main_arg15 = m ((c : Thread nD τ).loc main_arg15) :=
  ((W6_arr m ρ c 7).trans (((dat2 (V5 m ρ) c).arrAt_in 7 rfl _).trans (A_eq2 (V5 m ρ) c 7))).symm.trans (W6_main_arg15 m ρ c)
/-- Region 2 finds argument 16 as launched (it is the region's input window 8, which the region leaves in place). -/
theorem V5_arg16 (c : Dev nD) : V5 m ρ c main_arg16 = m ((c : Thread nD τ).loc main_arg16) :=
  ((W6_arr m ρ c 8).trans (((dat2 (V5 m ρ) c).arrAt_in 8 rfl _).trans (A_eq2 (V5 m ρ) c 8))).symm.trans (W6_main_arg16 m ρ c)

/-! ## The third region -/

/-- THE RESULT: the last boundary's contents at the result buffer are the reference's last stage of the launch arguments. -/
theorem result_eq (c : Dev nD) :
    W6 m ρ c (Proc.devRef .tc main_v39) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W6_arr m ρ c 9).trans ((Reg2.final (V5 m ρ) c).trans ?_)
  show Cert.Sage.tail (V5 m ρ c main_v38) (V5 m ρ c main_arg9) (V5 m ρ c main_arg10) (V5 m ρ c main_arg11) (V5 m ρ c main_arg12)
    (V5 m ρ c main_arg13) (V5 m ρ c main_arg14) (V5 m ρ c main_arg15) (V5 m ρ c main_arg16) = _
  rw [V5_v38, V5_arg9, V5_arg10, V5_arg11, V5_arg12, V5_arg13, V5_arg14, V5_arg15, V5_arg16]
  exact (Cert.ReferenceIdeal.RefValue.tailStage _ _ _ _ _ _ _ _ _ _ _ _ _ _ _ _ _).symm

end Cert.KernelIdeal.KValue

end
-- ==== Proof.lean ====
/-
  A two-layer mean-aggregation graph network with a pooled classifier tail: the kernel program against its reference.

  Both programs compute, from node features x, edges (src, dst), a graph assignment and the parameters,
      h1  = layer (agg x) x W1l W1r b1,        h2 = layer (agg h1) h1 W2l W2r b2,
      out = tail (pool h2) …,
  where agg h = (scatter-add by dst of the rows h[src]) / max (count by dst, 1), pool is the scatter-add by graph,
  layer a x Wl Wr b = a · Wlᵀ + x · Wrᵀ + b and tail is a linear map, a normalisation by fixed statistics, a rectifier
  and a second linear map. The kernel program computes agg and pool on the host with the same operations as the
  reference, and each layer and the tail in a region: ten row blocks per layer, one block for the tail. Over the
  extended reals a region's output array is the layer (or tail) function of the arrays it finds — a change of float
  format is the identity, a product into a zero accumulator is the plain sum, the blocks tile the array — and the
  reference's layer a · Wlᵀ + b + x · Wrᵀ is the same function by commutativity and associativity of addition, which
  need no finiteness. So both results are one function of the arguments: the reference's last stage.

  The frames of the two kernel programs are the generated ones; the reference's frame is its generated run with the
  result dropped; the idealization rewrote nothing, so there is nothing to preserve.
-/
import proofs.«155865_j5927054868969_1_alg».proof.Defs
import proofs.«155865_j5927054868969_1_alg».proof.Proof.Gen.Kernel
import proofs.«155865_j5927054868969_1_alg».proof.Proof.Gen.Kernel.Skeleton
import proofs.«155865_j5927054868969_1_alg».proof.Proof.Gen.Kernel.Launch
import proofs.«155865_j5927054868969_1_alg».proof.Proof.Gen.Kernel.Points
import proofs.«155865_j5927054868969_1_alg».proof.Proof.Gen.Kernel.Frame
import proofs.«155865_j5927054868969_1_alg».proof.Proof.Gen.KernelIdeal
import proofs.«155865_j5927054868969_1_alg».proof.Proof.Gen.KernelIdeal.Skeleton
import proofs.«155865_j5927054868969_1_alg».proof.Proof.Gen.KernelIdeal.Launch
import proofs.«155865_j5927054868969_1_alg».proof.Proof.Gen.KernelIdeal.Points
import proofs.«155865_j5927054868969_1_alg».proof.Proof.Gen.KernelIdeal.Frame
import proofs.«155865_j5927054868969_1_alg».proof.Proof.Gen.ReferenceIdeal
import proofs.«155865_j5927054868969_1_alg».proof.Proof.Gen.Pre_finite_inputs
import proofs.«155865_j5927054868969_1_alg».proof.Proof.Gen.ReferenceIdeal.Run
import proofs.«155865_j5927054868969_1_alg».proof.Proof.Gen.ReferenceIdeal.Read
import proofs.«155865_j5927054868969_1_alg».proof.Proof.KRun
import proofs.«155865_j5927054868969_1_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's run, with what it says of the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KValue.result_eq m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    refine (Cert.ReferenceIdeal.Read.val_main_v84_eq m' c).trans ?_
    rw [e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
